-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x2x128 : Shape := ⟨3, ![20000, 2, 128]⟩
abbrev S128 : Shape := ⟨1, ![128]⟩
abbrev S200000 : Shape := ⟨1, ![200000]⟩
abbrev S_ : Shape := ⟨0, ![]⟩

class Facts : Prop where
  bcast_S_S20000x2x128 : S_.BroadcastsInDim S20000x2x128 (![] : Fin 0 → Fin S20000x2x128.rank)
  reducesTo_S20000x2x128_S_d0_1_2 : S20000x2x128.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S20000x2x128 .f32) (main_arg1 : FVec F S128 .f32) (main_arg2 : FVec F S128 .f32) (main_arg3 : FVec F S128 .f32) (main_arg4 : FVec F S128 .f32) (main_arg5 : IVec S200000 32) (main_arg6 : IVec S200000 32) (main_arg7 : IVec S200000 32) : IVec S_ 1 :=
  let main_v0 : FVec F S20000x2x128 .f32 := Host.absf main_arg0
  let main_cst : FVec F S_ .f32 := constant S_ .f32 0x7F800000#32
  let main_v1 : FVec F S20000x2x128 .f32 := broadcastInDim S20000x2x128 ![] bcast_S_S20000x2x128 main_cst
  let main_v2 : IVec S20000x2x128 1 := cmpf .olt main_v0 main_v1
  let main_c : IVec S_ 1 := constantI S_ 1 1#1
  let main_v3 : IVec S_ 1 := (fun x v => Host.reduce IntOp.andi x v reducesTo_S20000x2x128_S_d0_1_2 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S20000x2x128 : Shape := ⟨3, ![20000, 2, 128]⟩
abbrev S128 : Shape := ⟨1, ![128]⟩
abbrev S200000 : Shape := ⟨1, ![200000]⟩
abbrev S_ : Shape := ⟨0, ![]⟩
abbrev S200000x1 : Shape := ⟨2, ![200000, 1]⟩
abbrev S200000x2x128 : Shape := ⟨3, ![200000, 2, 128]⟩
abbrev S200000x1x1 : Shape := ⟨3, ![200000, 1, 1]⟩
abbrev S1x1x128 : Shape := ⟨3, ![1, 1, 128]⟩
abbrev S1250x2x128 : Shape := ⟨3, ![1250, 2, 128]⟩
abbrev S1250x1x1 : Shape := ⟨3, ![1250, 1, 1]⟩
abbrev S1250x1x128 : Shape := ⟨3, ![1250, 1, 128]⟩
abbrev S20000 : Shape := ⟨1, ![20000]⟩
abbrev S20000x1x1 : Shape := ⟨3, ![20000, 1, 1]⟩

abbrev nBuf : Space → Nat
  | .hbm => 39
  | .vmem => 10
  | .smem => 0
  | _ => 0

abbrev bufTy : (tb : Table) → Fin (tcTables nBuf tb) → BufTy
  | .hbm, ⟨0, _⟩ => ⟨S20000x2x128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S200000, .i32⟩
  | .hbm, ⟨6, _⟩ => ⟨S200000, .i32⟩
  | .hbm, ⟨7, _⟩ => ⟨S200000, .i32⟩
  | .hbm, ⟨8, _⟩ => ⟨S_, .i32⟩
  | .hbm, ⟨9, _⟩ => ⟨S200000, .i32⟩
  | .hbm, ⟨10, _⟩ => ⟨S200000, .i1⟩
  | .hbm, ⟨11, _⟩ => ⟨S_, .i32⟩
  | .hbm, ⟨12, _⟩ => ⟨S200000, .i32⟩
  | .hbm, ⟨13, _⟩ => ⟨S200000, .i32⟩
  | .hbm, ⟨14, _⟩ => ⟨S200000, .i32⟩
  | .hbm, ⟨15, _⟩ => ⟨S200000x1, .i32⟩
  | .hbm, ⟨16, _⟩ => ⟨S200000x2x128, .f32⟩
  | .hbm, ⟨17, _⟩ => ⟨S200000x1x1, .i32⟩
  | .hbm, ⟨18, _⟩ => ⟨S1x1x128, .f32⟩
  | .hbm, ⟨19, _⟩ => ⟨S1x1x128, .f32⟩
  | .hbm, ⟨20, _⟩ => ⟨S1x1x128, .f32⟩
  | .hbm, ⟨21, _⟩ => ⟨S1x1x128, .f32⟩
  | .hbm, ⟨22, _⟩ => ⟨S200000x2x128, .f32⟩
  | .hbm, ⟨23, _⟩ => ⟨S_, .f32⟩
  | .hbm, ⟨24, _⟩ => ⟨S20000x2x128, .f32⟩
  | .hbm, ⟨25, _⟩ => ⟨S200000x1, .i32⟩
  | .hbm, ⟨26, _⟩ => ⟨S20000x2x128, .f32⟩
  | .hbm, ⟨27, _⟩ => ⟨S_, .f32⟩
  | .hbm, ⟨28, _⟩ => ⟨S200000, .f32⟩
  | .hbm, ⟨29, _⟩ => ⟨S_, .f32⟩
  | .hbm, ⟨30, _⟩ => ⟨S20000, .f32⟩
  | .hbm, ⟨31, _⟩ => ⟨S200000x1, .i32⟩
  | .hbm, ⟨32, _⟩ => ⟨S20000, .f32⟩
  | .hbm, ⟨33, _⟩ => ⟨S_, .f32⟩
  | .hbm, ⟨34, _⟩ => ⟨S20000, .f32⟩
  | .hbm, ⟨35, _⟩ => ⟨S20000, .f32⟩
  | .hbm, ⟨36, _⟩ => ⟨S20000x1x1, .f32⟩
  | .hbm, ⟨37, _⟩ => ⟨S20000x2x128, .f32⟩
  | .hbm, ⟨38, _⟩ => ⟨S20000x2x128, .f32⟩
  | .local _ .vmem, ⟨0, _⟩ => ⟨S1250x2x128, .f32⟩
  | .local _ .vmem, ⟨1, _⟩ => ⟨S1250x2x128, .f32⟩
  | .local _ .vmem, ⟨2, _⟩ => ⟨S1250x1x1, .i32⟩
  | .local _ .vmem, ⟨3, _⟩ => ⟨S1250x1x1, .i32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1250x2x128, .f32⟩
  | .local _ .vmem, ⟨9, _⟩ => ⟨S1250x2x128, .f32⟩
  | _, _ => ⟨S20000x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![160], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1250x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1250x1x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1250x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  shapeCasts_S200000_S200000x1x1 : S200000.ShapeCasts S200000x1x1
  shapeCasts_S128_S1x1x128 : S128.ShapeCasts S1x1x128
  inb_S1250x2x128_S1250x2x128_0_0_0 : ∀ a, (![0, 0, 0] : Fin 3 → Nat) a + S1250x2x128.size a ≤ S1250x2x128.size a
  h_S1250x2x128 : 0 < S1250x2x128.numel
  shapeCasts_S1250x2x128_S1250x2x128 : S1250x2x128.ShapeCasts S1250x2x128
  inb_S1250x1x1_S1250x1x1_0_0_0 : ∀ a, (![0, 0, 0] : Fin 3 → Nat) a + S1250x1x1.size a ≤ S1250x1x1.size a
  h_S1250x1x1 : 0 < S1250x1x1.numel
  shapeCasts_S1250x1x1_S1250x1x1 : S1250x1x1.ShapeCasts S1250x1x1
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  natLt_1_32 : 1 < 32
  broadcasts_S1250x1x1_S1250x1x128 : S1250x1x1.Broadcasts S1250x1x128
  broadcasts_S1x1x128_S1250x1x128 : S1x1x128.Broadcasts S1250x1x128
  shapeCasts_S1250x1x128_S1250x1x128 : S1250x1x128.ShapeCasts S1250x1x128
  broadcasts_S1250x1x128_S1250x2x128 : S1250x1x128.Broadcasts S1250x2x128
  bcast_S_S20000x2x128 : S_.BroadcastsInDim S20000x2x128 (![] : Fin 0 → Fin S20000x2x128.rank)
  bcast_S_S20000 : S_.BroadcastsInDim S20000 (![] : Fin 0 → Fin S20000.rank)
  bcast_S20000_S20000x1x1_0 : S20000.BroadcastsInDim S20000x1x1 (![0] : Fin 1 → Fin S20000x1x1.rank)
  bcast_S20000x1x1_S20000x2x128_0_1_2 : S20000x1x1.BroadcastsInDim S20000x2x128 (![0, 1, 2] : Fin 3 → Fin S20000x2x128.rank)
  gather_S20000x2x128_S200000x1_S200000x2x128_12_0_n_n_0_1_12128_wf : GatherDims.WF S20000x2x128 S200000x1 S200000x2x128 [1, 2] [0] [] [0] [] 1 ![1, 2, 128]
  scatter_S20000x2x128_S200000x1_S200000x2x128_12_0_0_1_wf : ScatterDims.WF S20000x2x128 S200000x1 S200000x2x128 [1, 2] [0] [0] 1
  scatter_S20000_S200000x1_S200000_n_0_0_1_wf : ScatterDims.WF S20000 S200000x1 S200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1250x2x128.size a ≤ S200000x2x128.size a
  hwx0_0 : ∀ i : grid0.Coords, EltTy.bits .f32 = 32 ∨ (Rect.block (s := S200000x2x128) S1250x2x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1250x1x1.size a ≤ S200000x1x1.size a
  hwx0_1 : ∀ i : grid0.Coords, EltTy.bits .i32 = 32 ∨ (Rect.block (s := S200000x1x1) S1250x1x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S1x1x128.size a
  hwx0_2 : ∀ i : grid0.Coords, EltTy.bits .f32 = 32 ∨ (Rect.block (s := S1x1x128) S1x1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S1x1x128.size a
  hwx0_3 : ∀ i : grid0.Coords, EltTy.bits .f32 = 32 ∨ (Rect.block (s := S1x1x128) S1x1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S1x1x128.size a
  hwx0_4 : ∀ i : grid0.Coords, EltTy.bits .f32 = 32 ∨ (Rect.block (s := S1x1x128) S1x1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S1x1x128.size a
  hwx0_5 : ∀ i : grid0.Coords, EltTy.bits .f32 = 32 ∨ (Rect.block (s := S1x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1250x2x128.size a ≤ S200000x2x128.size a
  hwx0_6 : ∀ i : grid0.Coords, EltTy.bits .f32 = 32 ∨ (Rect.block (s := S200000x2x128) S1250x2x128.size (cc0_transform_6 i) (hinb0_6 i)).WholeWords (EltTy.packing .f32)

variable [Facts₀]

def gather_S20000x2x128_S200000x1_S200000x2x128_12_0_n_n_0_1_12128 : GatherDims S20000x2x128 S200000x1 S200000x2x128 where
  offsetDims := [1, 2]
  collapsedSliceDims := [0]
  operandBatchingDims := []
  startIndicesBatchingDims := []
  startIndexMap := [0]
  indexVectorDim := 1
  sliceSizes := ![1, 2, 128]
  wf := gather_S20000x2x128_S200000x1_S200000x2x128_12_0_n_n_0_1_12128_wf
def scatter_S20000x2x128_S200000x1_S200000x2x128_12_0_0_1 : ScatterDims S20000x2x128 S200000x1 S200000x2x128 where
  updateWindowDims := [1, 2]
  insertedWindowDims := [0]
  scatterDimsToOperandDims := [0]
  indexVectorDim := 1
  wf := scatter_S20000x2x128_S200000x1_S200000x2x128_12_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf

abbrev win0_0 : Pipeline.Window sig grid0 :=
  Pipeline.Window.ofSpec (Memref.whole main_v6) S1250x2x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1250x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1250x2x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S20000x2x128 : Shape := ⟨3, ![20000, 2, 128]⟩
abbrev S128 : Shape := ⟨1, ![128]⟩
abbrev S200000 : Shape := ⟨1, ![200000]⟩
abbrev S_ : Shape := ⟨0, ![]⟩
abbrev S200000x1 : Shape := ⟨2, ![200000, 1]⟩
abbrev S200000x2x128 : Shape := ⟨3, ![200000, 2, 128]⟩
abbrev S200000x1x1 : Shape := ⟨3, ![200000, 1, 1]⟩
abbrev S200000x1x128 : Shape := ⟨3, ![200000, 1, 128]⟩
abbrev S20000 : Shape := ⟨1, ![20000]⟩
abbrev S20000x1x1 : Shape := ⟨3, ![20000, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S20000x2x128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S200000, .i32⟩
  | .hbm, ⟨6, _⟩ => ⟨S200000, .i32⟩
  | .hbm, ⟨7, _⟩ => ⟨S200000, .i32⟩
  | .hbm, ⟨8, _⟩ => ⟨S_, .i32⟩
  | .hbm, ⟨9, _⟩ => ⟨S200000, .i32⟩
  | .hbm, ⟨10, _⟩ => ⟨S200000, .i1⟩
  | .hbm, ⟨11, _⟩ => ⟨S_, .i32⟩
  | .hbm, ⟨12, _⟩ => ⟨S200000, .i32⟩
  | .hbm, ⟨13, _⟩ => ⟨S200000, .i32⟩
  | .hbm, ⟨14, _⟩ => ⟨S200000, .i32⟩
  | .hbm, ⟨15, _⟩ => ⟨S200000x1, .i32⟩
  | .hbm, ⟨16, _⟩ => ⟨S200000x2x128, .f32⟩
  | .hbm, ⟨17, _⟩ => ⟨S_, .i32⟩
  | .hbm, ⟨18, _⟩ => ⟨S200000, .i32⟩
  | .hbm, ⟨19, _⟩ => ⟨S200000, .i1⟩
  | .hbm, ⟨20, _⟩ => ⟨S200000x1x1, .i1⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S200000x1x128, .i1⟩
  | .hbm, ⟨38, _⟩ => ⟨S200000x1x128, .f32⟩
  | .hbm, ⟨39, _⟩ => ⟨S200000x1x128, .f32⟩
  | .hbm, ⟨40, _⟩ => ⟨S200000x1x128, .f32⟩
  | .hbm, ⟨41, _⟩ => ⟨S200000x1x128, .i1⟩
  | .hbm, ⟨42, _⟩ => ⟨S200000x1x128, .f32⟩
  | .hbm, ⟨43, _⟩ => ⟨S200000x1x128, .f32⟩
  | .hbm, ⟨44, _⟩ => ⟨S200000x1x128, .f32⟩
  | .hbm, ⟨45, _⟩ => ⟨S200000x2x128, .f32⟩
  | .hbm, ⟨46, _⟩ => ⟨S200000x2x128, .f32⟩
  | .hbm, ⟨47, _⟩ => ⟨S200000x2x128, .f32⟩
  | .hbm, ⟨48, _⟩ => ⟨S200000x2x128, .f32⟩
  | .hbm, ⟨49, _⟩ => ⟨S_, .f32⟩
  | .hbm, ⟨50, _⟩ => ⟨S20000x2x128, .f32⟩
  | .hbm, ⟨51, _⟩ => ⟨S200000x1, .i32⟩
  | .hbm, ⟨52, _⟩ => ⟨S20000x2x128, .f32⟩
  | .hbm, ⟨53, _⟩ => ⟨S_, .f32⟩
  | .hbm, ⟨54, _⟩ => ⟨S200000, .f32⟩
  | .hbm, ⟨55, _⟩ => ⟨S_, .f32⟩
  | .hbm, ⟨56, _⟩ => ⟨S20000, .f32⟩
  | .hbm, ⟨57, _⟩ => ⟨S200000x1, .i32⟩
  | .hbm, ⟨58, _⟩ => ⟨S20000, .f32⟩
  | .hbm, ⟨59, _⟩ => ⟨S_, .f32⟩
  | .hbm, ⟨60, _⟩ => ⟨S20000, .f32⟩
  | .hbm, ⟨61, _⟩ => ⟨S20000, .f32⟩
  | .hbm, ⟨62, _⟩ => ⟨S20000x1x1, .f32⟩
  | .hbm, ⟨63, _⟩ => ⟨S20000x2x128, .f32⟩
  | .hbm, ⟨64, _⟩ => ⟨S20000x2x128, .f32⟩
  | _, _ => ⟨S20000x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v22 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S200000_S200000x1x1_0 : S200000.BroadcastsInDim S200000x1x1 (![0] : Fin 1 → Fin S200000x1x1.rank)
  bcast_S_S128 : S_.BroadcastsInDim S128 (![] : Fin 0 → Fin S128.rank)
  bcast_S200000x1x1_S200000x1x128_0_1_2 : S200000x1x1.BroadcastsInDim S200000x1x128 (![0, 1, 2] : Fin 3 → Fin S200000x1x128.rank)
  bcast_S128_S200000x1x128_2 : S128.BroadcastsInDim S200000x1x128 (![2] : Fin 1 → Fin S200000x1x128.rank)
  bcast_S200000x1x128_S200000x2x128_0_1_2 : S200000x1x128.BroadcastsInDim S200000x2x128 (![0, 1, 2] : Fin 3 → Fin S200000x2x128.rank)
  bcast_S_S20000x2x128 : S_.BroadcastsInDim S20000x2x128 (![] : Fin 0 → Fin S20000x2x128.rank)
  bcast_S_S20000 : S_.BroadcastsInDim S20000 (![] : Fin 0 → Fin S20000.rank)
  bcast_S20000_S20000x1x1_0 : S20000.BroadcastsInDim S20000x1x1 (![0] : Fin 1 → Fin S20000x1x1.rank)
  bcast_S20000x1x1_S20000x2x128_0_1_2 : S20000x1x1.BroadcastsInDim S20000x2x128 (![0, 1, 2] : Fin 3 → Fin S20000x2x128.rank)
  gather_S20000x2x128_S200000x1_S200000x2x128_12_0_n_n_0_1_12128_wf : GatherDims.WF S20000x2x128 S200000x1 S200000x2x128 [1, 2] [0] [] [0] [] 1 ![1, 2, 128]
  scatter_S20000x2x128_S200000x1_S200000x2x128_12_0_0_1_wf : ScatterDims.WF S20000x2x128 S200000x1 S200000x2x128 [1, 2] [0] [0] 1
  scatter_S20000_S200000x1_S200000_n_0_0_1_wf : ScatterDims.WF S20000 S200000x1 S200000 [] [0] [0] 1

variable [Facts₀]

def gather_S20000x2x128_S200000x1_S200000x2x128_12_0_n_n_0_1_12128 : GatherDims S20000x2x128 S200000x1 S200000x2x128 where
  offsetDims := [1, 2]
  collapsedSliceDims := [0]
  operandBatchingDims := []
  startIndicesBatchingDims := []
  startIndexMap := [0]
  indexVectorDim := 1
  sliceSizes := ![1, 2, 128]
  wf := gather_S20000x2x128_S200000x1_S200000x2x128_12_0_n_n_0_1_12128_wf
def scatter_S20000x2x128_S200000x1_S200000x2x128_12_0_0_1 : ScatterDims S20000x2x128 S200000x1 S200000x2x128 where
  updateWindowDims := [1, 2]
  insertedWindowDims := [0]
  scatterDimsToOperandDims := [0]
  indexVectorDim := 1
  wf := scatter_S20000x2x128_S200000x1_S200000x2x128_12_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf

class Facts : Prop extends Facts₀ where

variable [Facts]
-- ==== Proof.Blend.lean ====
/-
  The scalar facts that join the kernel's arithmetic mask to the reference's select, on the extended reals.

  The kernel turns the test "the position word is zero" into a float mask (1 when it holds, 0 otherwise) and
  blends two operands as  mask * a + (1 - mask) * b;  the reference selects a or b by the same test.
  With the mask 1 the blend is  1 * a + 0 * b = a,  with the mask 0 it is  0 * a + 1 * b = b:  only
  one_mul, zero_mul, add_zero and zero_add, which hold for every extended real (the infinities included),
  so no finiteness is used. The logistic function is, by its definition at the ideal instance, the quotient
  1 / (1 + exp (-x)) that the reference spells with a negation, an exponential, a sum and a division.
-/
import Idealize.ShloMosaic.PureOps.Ideal
import Idealize.ShloMosaic.PureOps.Ideal.Laws
import Idealize.ShloMosaic.Lib.IdealHost
import Idealize.ShloMosaic.Lib.ValueIdx

noncomputable section

namespace Cert.Affine

open Idealize.ShloMosaic

/-- The comparison bit "p = 0", zero-extended to a word and read as a signed integer, is the real 1 when the
    position word is zero and the real 0 otherwise. -/
theorem mask_eq (p : BitVec 32) :
    FloatOps.sitofp (F := Ideal) .f32 ((IntOp.cmpi .eq p 0#32).setWidth 32)
      = if p = 0#32 then (1 : EReal) else 0 := by
  show (((((IntOp.cmpi .eq p 0#32).setWidth 32).toInt : ℤ) : ℝ) : EReal) = _
  by_cases h : p = 0#32
  · subst h
    rw [if_pos rfl]
    have : ((IntOp.cmpi .eq (0#32) 0#32).setWidth 32).toInt = 1 := by decide
    rw [this]; norm_num
  · rw [if_neg h]
    have hb : (p == 0#32) = false := by simpa using h
    have : ((IntOp.cmpi .eq p 0#32).setWidth 32).toInt = 0 := by
      unfold IntOp.cmpi
      simp only [hb]
      decide
    rw [this]; norm_num

/-- The reference's select on the comparison bit "p = 0" is the conditional on the test itself. -/
theorem select_cmp {α : Type} (p : BitVec 32) (a b : α) :
    Scalar.select (IntOp.cmpi .eq p 0#32) a b = if p = 0#32 then a else b := by
  unfold Scalar.select IntOp.cmpi
  by_cases h : p = 0#32
  · subst h; rfl
  · have hb : (p == 0#32) = false := by simpa using h
    simp only [hb, if_neg h]
    rfl

/-- The blend by a 0/1 mask is the selected operand, for all extended reals a and b. -/
theorem blend (p : BitVec 32) (a b : EReal) :
    (if p = 0#32 then (1 : EReal) else 0) * a + ((1 : EReal) - (if p = 0#32 then (1 : EReal) else 0)) * b
      = if p = 0#32 then a else b := by
  by_cases h : p = 0#32
  · simp only [if_pos h]
    have e : (1 : EReal) - 1 = 0 := by
      rw [← EReal.coe_one, ← EReal.coe_sub, sub_self, EReal.coe_zero]
    rw [e, one_mul, zero_mul, add_zero]
  · simp only [if_neg h]
    rw [zero_mul, sub_zero, one_mul, zero_add]

/-- The logistic function is the quotient 1 / (1 + exp (-x)). -/
theorem logistic_eq (x : EReal) : Ideal.logistic x = Ideal.div 1 (1 + Ideal.exp (-x)) := rfl

end Cert.Affine

end
-- ==== Proof.KernelPoint.lean ====
/-
  The kernel body's stored value, read at one entry (e, ch, k) of its block of 1250 edges, 2 channels
  and 128 lanes, on the extended reals.

  The body broadcasts three kinds of small vectors: a per-edge column [1250,1,1] along the lanes, a per-lane
  row [1,1,128] along the edges, and a [1250,1,128] sheet along the two channels; each read at (e, ·, k)
  is the operand at the coordinates it has. The mask of edge e is 1 when its position word is zero and 0
  otherwise, so the blended scale  mask * logistic dl + (1 - mask) * logistic dr  is the logistic of the
  selected parameter and the blended bias is the selected bias (Blend.lean); the stored value is
  sf * scale + bias.
-/
import proofs.«109849_j81793357185443_2_alg».proof.Proof.Gen.KernelIdeal.Skeleton
import proofs.«109849_j81793357185443_2_alg».proof.Proof.Blend
import Idealize.ShloMosaic.Lib.Pipeline.Value
import Idealize.ShloMosaic.Lib.ValueIdx

noncomputable section

namespace Cert.Affine

open Idealize.ShloMosaic Idealize.ShloMosaic.ValueIdx Cert.KernelIdeal Cert.KernelIdeal.Gen

/-- A per-edge column broadcast along the lanes reads the column at the edge. -/
theorem bcast_edge {α : Type} (x : S1250x1x1.Idx → α) (e : Fin 1250) (k : Fin 128) :
    broadcastTo S1250x1x128 x broadcasts_S1250x1x1_S1250x1x128 (ix3 e (0 : Fin 1) k) = x (ix3 e (0 : Fin 1) (0 : Fin 1)) :=
  broadcastTo_apply x _ _ _ (fun a => by
    match a with
    | ⟨0, _⟩ => rfl
    | ⟨1, _⟩ => rfl
    | ⟨2, _⟩ => rfl)

/-- A per-lane row broadcast along the edges reads the row at the lane. -/
theorem bcast_lane {α : Type} (x : S1x1x128.Idx → α) (e : Fin 1250) (k : Fin 128) :
    broadcastTo S1250x1x128 x broadcasts_S1x1x128_S1250x1x128 (ix3 e (0 : Fin 1) k) = x (ix3 (0 : Fin 1) (0 : Fin 1) k) :=
  broadcastTo_apply x _ _ _ (fun a => by
    match a with
    | ⟨0, _⟩ => rfl
    | ⟨1, _⟩ => rfl
    | ⟨2, _⟩ => rfl)

/-- An (edge, lane) sheet broadcast along the channels reads the sheet, whatever the channel. -/
theorem bcast_chan {α : Type} (x : S1250x1x128.Idx → α) (e : Fin 1250) (ch : Fin 2) (k : Fin 128) :
    broadcastTo S1250x2x128 x broadcasts_S1250x1x128_S1250x2x128 (ix3 e ch k) = x (ix3 e (0 : Fin 1) k) :=
  broadcastTo_apply x _ _ _ (fun a => by
    match a with
    | ⟨0, _⟩ => rfl
    | ⟨1, _⟩ => rfl
    | ⟨2, _⟩ => rfl)

/-- The mask of an edge: 1 when its position word is zero, 0 otherwise. -/
theorem mask_apply (x1 : IVec S1250x1x1 32) (j : S1250x1x1.Idx) :
    k0_pay3 (F := Ideal) x1 j = if x1 j = 0#32 then (1 : EReal) else 0 := by
  unfold k0_pay3
  show FloatOps.sitofp (F := Ideal) .f32
      ((IntOp.cmpi .eq (shapeCast S1250x1x1 x1 shapeCasts_S1250x1x1_S1250x1x1 j) 0#32).setWidth 32) = _
  rw [shapeCast_self]
  exact mask_eq (x1 j)

/-- The literal 1.0 the body subtracts the mask from. -/
theorem one_word : (Scalar.ofBits (F := Ideal) .f32 0x3F800000#32 : EReal) = 1 := Ideal.ofBits_one_f32

/-- The blended scale at (e, ch, k): the logistic of the left parameter when the edge's position word is zero,
    of the right one otherwise. -/
theorem scale_apply (x1 : IVec S1250x1x1 32) (x2 x3 : FVec Ideal S1x1x128 .f32) (e : Fin 1250) (ch : Fin 2) (k : Fin 128) :
    k0_pay5 (F := Ideal) x1 x2 x3 (ix3 e ch k)
      = if x1 (ix3 e (0 : Fin 1) (0 : Fin 1)) = 0#32 then Ideal.logistic (x2 (ix3 (0 : Fin 1) (0 : Fin 1) k))
        else Ideal.logistic (x3 (ix3 (0 : Fin 1) (0 : Fin 1) k)) := by
  unfold k0_pay5
  rw [bcast_chan, shapeCast_self]
  simp only [addf_apply, mulf_apply, subf_apply, bcast_edge, bcast_lane, broadcast_apply, mask_apply, one_word,
    logistic, shapeCast_self, Ideal.logistic_def]
  exact blend _ _ _

/-- The blended bias at (e, ·, k): the left bias when the edge's position word is zero, the right one otherwise. -/
theorem bias_apply (x1 : IVec S1250x1x1 32) (x4 x5 : FVec Ideal S1x1x128 .f32) (e : Fin 1250) (k : Fin 128) :
    k0_pay4 (F := Ideal) x1 x4 x5 (ix3 e (0 : Fin 1) k)
      = if x1 (ix3 e (0 : Fin 1) (0 : Fin 1)) = 0#32 then x4 (ix3 (0 : Fin 1) (0 : Fin 1) k)
        else x5 (ix3 (0 : Fin 1) (0 : Fin 1) k) := by
  unfold k0_pay4
  simp only [addf_apply, mulf_apply, subf_apply, bcast_edge, bcast_lane, broadcast_apply, mask_apply, one_word,
    shapeCast_self]
  exact blend _ _ _

/-- The stored value at (e, ch, k): the gathered feature times the selected scale plus the selected bias. -/
theorem payload_apply (x0 : FVec Ideal S1250x2x128 .f32) (x1 : IVec S1250x1x1 32)
    (x2 x3 x4 x5 : FVec Ideal S1x1x128 .f32) (e : Fin 1250) (ch : Fin 2) (k : Fin 128) :
    k0_pay1 (F := Ideal) (k0_pay2 x0) (k0_pay4 x1 x4 x5) (k0_pay5 x1 x2 x3) (ix3 e ch k)
      = x0 (ix3 e ch k)
          * (if x1 (ix3 e (0 : Fin 1) (0 : Fin 1)) = 0#32 then Ideal.logistic (x2 (ix3 (0 : Fin 1) (0 : Fin 1) k))
             else Ideal.logistic (x3 (ix3 (0 : Fin 1) (0 : Fin 1) k)))
        + (if x1 (ix3 e (0 : Fin 1) (0 : Fin 1)) = 0#32 then x4 (ix3 (0 : Fin 1) (0 : Fin 1) k)
           else x5 (ix3 (0 : Fin 1) (0 : Fin 1) k)) := by
  unfold k0_pay1 k0_pay2
  simp only [addf_apply, mulf_apply, bcast_chan, shapeCast_self, scale_apply, bias_apply]

end Cert.Affine

end
-- ==== Proof.RefPoint.lean ====
/-
  The reference's message array, read at one entry (E, ch, k) of its 200000 edges, 2 channels and 128 lanes,
  on the extended reals.

  The reference selects, per edge, the left or right scale and bias by the test "the edge's position word is
  zero"; the scales are 1 / (1 + exp (-dl)) and 1 / (1 + exp (-dr)), which is the logistic function; every
  broadcast reads its operand at the coordinates it has (the generated read-at-an-index lemmas). So the entry
  is  sf[E, ch, k] * (logistic of the selected parameter at lane k) + (the selected bias at lane k),  where
  sf is the gathered feature array.
-/
import proofs.«109849_j81793357185443_2_alg».proof.Proof.Gen.ReferenceIdeal.Read
import proofs.«109849_j81793357185443_2_alg».proof.Proof.Blend
import Idealize.ShloMosaic.Lib.ValueIdx

noncomputable section

namespace Cert.Affine

open Idealize.ShloMosaic Idealize.ShloMosaic.ValueIdx Cert.ReferenceIdeal Cert.ReferenceIdeal.Read

/-- The edge coordinate survives the three broadcasts of the comparison bit. -/
theorem idx_edge (E : Fin 200000) (ch : Fin 2) (k : Fin 128) :
    idx_main_v9 (idx_main_call0_v0 (idx_main_v24 (ix3 E ch k))) = ix1 E :=
  funext fun a => by match a with | ⟨0, _⟩ => rfl

/-- The lane coordinate survives the two broadcasts of a per-lane row. -/
theorem idx_lane (E : Fin 200000) (ch : Fin 2) (k : Fin 128) :
    idx_main_call0_v1 (idx_main_v24 (ix3 E ch k)) = ix1 k :=
  funext fun a => by match a with | ⟨0, _⟩ => rfl

/-- The reference's message at (E, ch, k). -/
theorem ref_msg_apply (x0 : FVec Ideal S20000x2x128 .f32) (x1 x2 x3 x4 : FVec Ideal S128 .f32) (x5 x7 : IVec S200000 32)
    (E : Fin 200000) (ch : Fin 2) (k : Fin 128) :
    val_main_v27 (F := Ideal) x0 x1 x2 x3 x4 x5 x7 (ix3 E ch k)
      = val_main_v6 (F := Ideal) x0 x5 (ix3 E ch k)
          * (if x7 (ix1 E) = 0#32 then Ideal.logistic (x1 (ix1 k)) else Ideal.logistic (x2 (ix1 k)))
        + (if x7 (ix1 E) = 0#32 then x3 (ix1 k) else x4 (ix1 k)) := by
  rw [val_main_v27_apply, val_main_v25_apply, val_main_v24_apply, val_main_v22_apply, val_main_call0_v0_apply,
    val_main_v9_apply, val_main_v8_apply, val_main_v7_apply, val_main_c_1_apply, val_main_call0_v1_apply,
    val_main_v15_apply, val_main_v14_apply, val_main_cst_2_apply, val_main_v13_apply, val_main_v12_apply,
    val_main_cst_apply, val_main_v11_apply, val_main_v10_apply, val_main_call0_v2_apply,
    val_main_v21_apply, val_main_v20_apply, val_main_cst_4_apply, val_main_v19_apply, val_main_v18_apply,
    val_main_cst_3_apply, val_main_v17_apply, val_main_v16_apply,
    val_main_v26_apply, val_main_v23_apply, val_main_call1_v0_apply, val_main_v9_apply, val_main_v8_apply,
    val_main_v7_apply, val_main_c_1_apply, val_main_call1_v1_apply, val_main_call1_v2_apply]
  have e1 : idx_main_v9 (idx_main_call1_v0 (idx_main_v26 (ix3 E ch k))) = ix1 E := idx_edge E ch k
  have e2 : idx_main_call0_v2 (idx_main_v24 (ix3 E ch k)) = ix1 k := idx_lane E ch k
  have e3 : idx_main_call1_v1 (idx_main_v26 (ix3 E ch k)) = ix1 k := idx_lane E ch k
  have e4 : idx_main_call1_v2 (idx_main_v26 (ix3 E ch k)) = ix1 k := idx_lane E ch k
  simp only [idx_edge, idx_lane, e1, e2, e3, e4]
  simp only [select_cmp, Ideal.hostDivf_def, Ideal.addf_def, Ideal.mulf_def, Ideal.hostUnary_exp_def, Ideal.hostNegf_def,
    Ideal.negf_def, Ideal.ofBits_def, Ideal.ofBits_one_f32, ← logistic_eq]

end Cert.Affine

end
-- ==== Proof.Blocks.lean ====
/-
  The kernel's message array after the run is the reference's message array.

  The region has 160 grid points; point t handles edges 1250 t … 1250 t + 1249. Its input blocks are: rows
  1250 t + e of the gathered features and of the position words (viewed [200000,1,1]), and the four parameter
  vectors (viewed [1,1,128], the same block at every point). What point t writes back is the body's stored
  value of those blocks, which at (e, ch, k) is the reference's message at (1250 t + e, ch, k)
  (KernelPoint.lean against RefPoint.lean). The 160 blocks tile the 200000 edges, so the whole array is the
  reference's message array.
-/
import proofs.«109849_j81793357185443_2_alg».proof.Proof.Gen.KernelIdeal.Frame
import proofs.«109849_j81793357185443_2_alg».proof.Proof.KernelPoint
import proofs.«109849_j81793357185443_2_alg».proof.Proof.RefPoint
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.Affine

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

theorem hz : (![0, 0, 0] : Fin 3 → Nat) = fun _ => 0 := funext fun a => by fin_cases a <;> rfl

/-- The message array as the reference computes it from the argument arrays. -/
abbrev msg (c : Dev nD) : S200000x2x128.Idx → EReal :=
  Cert.ReferenceIdeal.Read.val_main_v27 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg7))

/-! ## The arrays the region finds -/

/-- The gathered features are the reference's gather of the same arguments. -/
theorem V_sf (c : Dev nD) : (V m c main_v6 : S200000x2x128.Idx → EReal)
    = Cert.ReferenceIdeal.Read.val_main_v6 (F := Ideal) (m ((c : Thread nD τ).loc main_arg0)) (m ((c : Thread nD τ).loc main_arg5)) := by
  show StableHlo.after hostOps0 (fun b => m (c, b)) (Proc.devRef .tc main_v6) = _
  after_results
  rfl

/-- The position words viewed [200000,1,1]. -/
theorem V_pos (c : Dev nD) : (V m c main_v7 : S200000x1x1.Idx → BitVec 32)
    = shapeCast S200000x1x1 (m ((c : Thread nD τ).loc main_arg7)) shapeCasts_S200000_S200000x1x1 := by
  show StableHlo.after hostOps0 (fun b => m (c, b)) (Proc.devRef .tc main_v7) = _
  after_results
  rfl

/-- The four parameter vectors viewed [1,1,128]. -/
theorem V_dl (c : Dev nD) : (V m c main_v8 : S1x1x128.Idx → EReal)
    = shapeCast S1x1x128 (m ((c : Thread nD τ).loc main_arg1)) shapeCasts_S128_S1x1x128 := by
  show StableHlo.after hostOps0 (fun b => m (c, b)) (Proc.devRef .tc main_v8) = _
  after_results
  rfl
theorem V_dr (c : Dev nD) : (V m c main_v9 : S1x1x128.Idx → EReal)
    = shapeCast S1x1x128 (m ((c : Thread nD τ).loc main_arg2)) shapeCasts_S128_S1x1x128 := by
  show StableHlo.after hostOps0 (fun b => m (c, b)) (Proc.devRef .tc main_v9) = _
  after_results
  rfl
theorem V_lb (c : Dev nD) : (V m c main_v10 : S1x1x128.Idx → EReal)
    = shapeCast S1x1x128 (m ((c : Thread nD τ).loc main_arg3)) shapeCasts_S128_S1x1x128 := by
  show StableHlo.after hostOps0 (fun b => m (c, b)) (Proc.devRef .tc main_v10) = _
  after_results
  rfl
theorem V_rb (c : Dev nD) : (V m c main_v11 : S1x1x128.Idx → EReal)
    = shapeCast S1x1x128 (m ((c : Thread nD τ).loc main_arg4)) shapeCasts_S128_S1x1x128 := by
  show StableHlo.after hostOps0 (fun b => m (c, b)) (Proc.devRef .tc main_v11) = _
  after_results
  rfl

/-- A vector of 200000 words viewed [200000,1,1], at edge E. -/
theorem col_apply {α : Type} (x : S200000.Idx → α) (E : Fin 200000) :
    shapeCast S200000x1x1 x shapeCasts_S200000_S200000x1x1 (ix3 E (0 : Fin 1) (0 : Fin 1)) = x (ix1 E) :=
  shapeCast_apply x _ _ _ (by
    rw [Shape.rowMajor_val_one, Shape.rowMajor_val_three]
    show E.val = (E.val * 1 + 0) * 1 + 0
    omega)

/-- A vector of 128 lanes viewed [1,1,128], at lane k. -/
theorem row_apply {α : Type} (x : S128.Idx → α) (k : Fin 128) :
    shapeCast S1x1x128 x shapeCasts_S128_S1x1x128 (ix3 (0 : Fin 1) (0 : Fin 1) k) = x (ix1 k) :=
  shapeCast_apply x _ _ _ (by
    rw [Shape.rowMajor_val_one, Shape.rowMajor_val_three]
    show k.val = (0 * 1 + 0) * 128 + k.val
    omega)

/-! ## The blocks -/

/-- The printed index maps over the grid: the edge blocks move with the point, the parameter blocks stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 3) = 0 ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

theorem N_eq : cfg0.N = 160 := N_0

/-- The edge that row e of point t's block is. -/
def edge (t : Fin cfg0.N) (e : Fin 1250) : Fin 200000 :=
  ⟨t.val * 1250 + e.val, by have h : t.val < 160 := lt_of_lt_of_eq t.isLt N_eq; have := e.isLt; omega⟩

/-- Row e of point t's feature block is row `edge t e` of the gathered features. -/
theorem sf_blk (c : Dev nD) (t : Fin cfg0.N) (e : Fin 1250) (ch : Fin 2) (k : Fin 128) :
    iblk m c 0 t (ix3 e ch k)
      = Cert.ReferenceIdeal.Read.val_main_v6 (F := Ideal) (m ((c : Thread nD τ).loc main_arg0)) (m ((c : Thread nD τ).loc main_arg5))
          (ix3 (edge t e) ch k) := by
  show V m c main_v6 (((cfg0.win 0).blk t).view.emb (ix3 e ch k)) = _
  rw [V_sf]
  obtain ⟨f0, f1, f2, -⟩ := idx_facts t
  refine congrArg _ (funext fun a => Fin.ext ?_)
  match a with
  | ⟨0, _⟩ => show win0_0.index t (0 : Fin 3) * 1250 + 1 * e.val = t.val * 1250 + e.val; rw [f0]; omega
  | ⟨1, _⟩ => show win0_0.index t (1 : Fin 3) * 2 + 1 * ch.val = ch.val; rw [f1]; omega
  | ⟨2, _⟩ => show win0_0.index t (2 : Fin 3) * 128 + 1 * k.val = k.val; rw [f2]; omega

/-- Row e of point t's block, whatever the window, sits at row `edge t e` of an array of 200000 rows. -/
theorem edge_val (t : Fin cfg0.N) (e : Fin 1250) : (edge t e).val = t.val * 1250 + e.val := rfl

/-- Row e of point t's position block is the position word of edge `edge t e`. -/
theorem pos_blk (c : Dev nD) (t : Fin cfg0.N) (e : Fin 1250) :
    iblk m c 1 t (ix3 e (0 : Fin 1) (0 : Fin 1)) = m ((c : Thread nD τ).loc main_arg7) (ix1 (edge t e)) := by
  show V m c main_v7 (((cfg0.win 1).blk t).view.emb (ix3 e (0 : Fin 1) (0 : Fin 1))) = _
  rw [V_pos]
  obtain ⟨-, -, -, f0, f1, f2, -⟩ := idx_facts t
  have hemb : ((cfg0.win 1).blk t).view.emb (ix3 e (0 : Fin 1) (0 : Fin 1)) = ix3 (edge t e) (0 : Fin 1) (0 : Fin 1) := by
    funext a; apply Fin.ext
    match a with
    | ⟨0, _⟩ => show win0_1.index t (0 : Fin 3) * 1250 + 1 * e.val = t.val * 1250 + e.val; rw [f0]; omega
    | ⟨1, _⟩ => show win0_1.index t (1 : Fin 3) * 1 + 1 * 0 = 0; rw [f1]
    | ⟨2, _⟩ => show win0_1.index t (2 : Fin 3) * 1 + 1 * 0 = 0; rw [f2]
  rw [hemb, col_apply]

/-- A parameter window's block at any point is the whole [1,1,128] view. -/
theorem dl_blk (c : Dev nD) (t : Fin cfg0.N) (k : Fin 128) :
    iblk m c 2 t (ix3 (0 : Fin 1) (0 : Fin 1) k) = m ((c : Thread nD τ).loc main_arg1) (ix1 k) := by
  show V m c main_v8 (((cfg0.win 2).blk t).view.emb (ix3 (0 : Fin 1) (0 : Fin 1) k)) = _
  rw [V_dl]
  obtain ⟨-, -, -, -, -, -, g0, g1, g2, -⟩ := idx_facts t
  have hemb : ((cfg0.win 2).blk t).view.emb (ix3 (0 : Fin 1) (0 : Fin 1) k) = ix3 (0 : Fin 1) (0 : Fin 1) k := by
    funext a; apply Fin.ext
    match a with
    | ⟨0, _⟩ => show win0_2.index t (0 : Fin 3) * 1 + 1 * 0 = 0; rw [g0]
    | ⟨1, _⟩ => show win0_2.index t (1 : Fin 3) * 1 + 1 * 0 = 0; rw [g1]
    | ⟨2, _⟩ => show win0_2.index t (2 : Fin 3) * 128 + 1 * k.val = k.val; rw [g2]; omega
  rw [hemb, row_apply]
theorem dr_blk (c : Dev nD) (t : Fin cfg0.N) (k : Fin 128) :
    iblk m c 3 t (ix3 (0 : Fin 1) (0 : Fin 1) k) = m ((c : Thread nD τ).loc main_arg2) (ix1 k) := by
  show V m c main_v9 (((cfg0.win 3).blk t).view.emb (ix3 (0 : Fin 1) (0 : Fin 1) k)) = _
  rw [V_dr]
  obtain ⟨-, -, -, -, -, -, -, -, -, g0, g1, g2, -⟩ := idx_facts t
  have hemb : ((cfg0.win 3).blk t).view.emb (ix3 (0 : Fin 1) (0 : Fin 1) k) = ix3 (0 : Fin 1) (0 : Fin 1) k := by
    funext a; apply Fin.ext
    match a with
    | ⟨0, _⟩ => show win0_3.index t (0 : Fin 3) * 1 + 1 * 0 = 0; rw [g0]
    | ⟨1, _⟩ => show win0_3.index t (1 : Fin 3) * 1 + 1 * 0 = 0; rw [g1]
    | ⟨2, _⟩ => show win0_3.index t (2 : Fin 3) * 128 + 1 * k.val = k.val; rw [g2]; omega
  rw [hemb, row_apply]
theorem lb_blk (c : Dev nD) (t : Fin cfg0.N) (k : Fin 128) :
    iblk m c 4 t (ix3 (0 : Fin 1) (0 : Fin 1) k) = m ((c : Thread nD τ).loc main_arg3) (ix1 k) := by
  show V m c main_v10 (((cfg0.win 4).blk t).view.emb (ix3 (0 : Fin 1) (0 : Fin 1) k)) = _
  rw [V_lb]
  obtain ⟨-, -, -, -, -, -, -, -, -, -, -, -, g0, g1, g2, -⟩ := idx_facts t
  have hemb : ((cfg0.win 4).blk t).view.emb (ix3 (0 : Fin 1) (0 : Fin 1) k) = ix3 (0 : Fin 1) (0 : Fin 1) k := by
    funext a; apply Fin.ext
    match a with
    | ⟨0, _⟩ => show win0_4.index t (0 : Fin 3) * 1 + 1 * 0 = 0; rw [g0]
    | ⟨1, _⟩ => show win0_4.index t (1 : Fin 3) * 1 + 1 * 0 = 0; rw [g1]
    | ⟨2, _⟩ => show win0_4.index t (2 : Fin 3) * 128 + 1 * k.val = k.val; rw [g2]; omega
  rw [hemb, row_apply]
theorem rb_blk (c : Dev nD) (t : Fin cfg0.N) (k : Fin 128) :
    iblk m c 5 t (ix3 (0 : Fin 1) (0 : Fin 1) k) = m ((c : Thread nD τ).loc main_arg4) (ix1 k) := by
  show V m c main_v11 (((cfg0.win 5).blk t).view.emb (ix3 (0 : Fin 1) (0 : Fin 1) k)) = _
  rw [V_rb]
  obtain ⟨-, -, -, -, -, -, -, -, -, -, -, -, -, -, -, g0, g1, g2, -⟩ := idx_facts t
  have hemb : ((cfg0.win 5).blk t).view.emb (ix3 (0 : Fin 1) (0 : Fin 1) k) = ix3 (0 : Fin 1) (0 : Fin 1) k := by
    funext a; apply Fin.ext
    match a with
    | ⟨0, _⟩ => show win0_5.index t (0 : Fin 3) * 1 + 1 * 0 = 0; rw [g0]
    | ⟨1, _⟩ => show win0_5.index t (1 : Fin 3) * 1 + 1 * 0 = 0; rw [g1]
    | ⟨2, _⟩ => show win0_5.index t (2 : Fin 3) * 128 + 1 * k.val = k.val; rw [g2]; omega
  rw [hemb, row_apply]

/-- Entry (e, ch, k) of point t's output block is entry (`edge t e`, ch, k) of the message array. -/
theorem out_emb (t : Fin cfg0.N) (e : Fin 1250) (ch : Fin 2) (k : Fin 128) :
    ((cfg0.win 6).blk t).view.emb (ix3 e ch k) = ix3 (edge t e) ch k := by
  obtain ⟨-, -, -, -, -, -, -, -, -, -, -, -, -, -, -, -, -, -, f0, f1, f2⟩ := idx_facts t
  funext a; apply Fin.ext
  match a with
  | ⟨0, _⟩ => show win0_6.index t (0 : Fin 3) * 1250 + 1 * e.val = t.val * 1250 + e.val; rw [f0]; omega
  | ⟨1, _⟩ => show win0_6.index t (1 : Fin 3) * 2 + 1 * ch.val = ch.val; rw [f1]; omega
  | ⟨2, _⟩ => show win0_6.index t (2 : Fin 3) * 128 + 1 * k.val = k.val; rw [f2]; omega

/-- What point t writes back is block t of the reference's message array. -/
theorem flushed_eq (c : Dev nD) (t : Fin cfg0.N) :
    (dats m 0 c).flushed 6 t = ((cfg0.win 6).blk t).view.read (Elt Ideal) (msg m c) := by
  show (cfg0.win 6).cut (grid0.coords t) ((dats m 0 c).after 6 t) = _
  rw [after0_6]
  unfold out0_6
  rw [View.canon_unit_zero hz]
  simp only [View.ld_unit_zero (S := S1250x2x128) hz, View.ld_unit_zero (S := S1250x1x1) hz, View.ld_unit_zero (S := S1x1x128) hz]
  funext j
  obtain ⟨e, ch, k, rfl⟩ : ∃ (e : Fin 1250) (ch : Fin 2) (k : Fin 128), j = ix3 e ch k := ⟨j 0, j 1, j 2, eq_ix3 j⟩
  show k0_pay1 (F := Ideal) (k0_pay2 (iblk m c 0 t)) (k0_pay4 (iblk m c 1 t) (iblk m c 4 t) (iblk m c 5 t))
      (k0_pay5 (iblk m c 1 t) (iblk m c 2 t) (iblk m c 3 t)) (ix3 e ch k)
    = msg m c (((cfg0.win 6).blk t).view.emb (ix3 e ch k))
  rw [payload_apply, out_emb, sf_blk, pos_blk, dl_blk, dr_blk, lb_blk, rb_blk]
  exact (ref_msg_apply _ _ _ _ _ _ _ (edge t e) ch k).symm

/-! ## The cover -/

/-- An index of the message array is in point t's block iff each coordinate is in the block's range. -/
theorem mem_blk (t : Fin cfg0.N) (i : S200000x2x128.Idx) :
    i ∈ ((cfg0.win 6).blk t).view.set ↔ ∀ a : Fin 3, win0_6.index t a * S1250x2x128.size a ≤ (i a).val
      ∧ (i a).val < win0_6.index t a * S1250x2x128.size a + S1250x2x128.size a := by
  show i ∈ ((View.whole main_v12).slice (win0_6.rect t)).set ↔ _
  rw [View.set_slice_whole, Rect.mem_set_unit]
  exact Iff.rfl

/-- Every edge is in the block of the point edge / 1250. -/
theorem cover (i : S200000x2x128.Idx) :
    ∃ t : Fin cfg0.N, (cfg0.win 6).flush t = true ∧ i ∈ ((cfg0.win 6).blk t).view.set := by
  have h0 : (i 0).val < 200000 := (i 0).isLt
  have h1 : (i 1).val < 2 := (i 1).isLt
  have h2 : (i 2).val < 128 := (i 2).isLt
  have ht : (i 0).val / 1250 < cfg0.N := by rw [N_eq]; omega
  refine ⟨⟨(i 0).val / 1250, ht⟩, flush0_6 _, ?_⟩
  obtain ⟨-, -, -, -, -, -, -, -, -, -, -, -, -, -, -, -, -, -, f0, f1, f2⟩ := idx_facts ⟨(i 0).val / 1250, ht⟩
  rw [mem_blk]
  intro a
  match a with
  | ⟨0, _⟩ =>
    show win0_6.index ⟨(i 0).val / 1250, ht⟩ (0 : Fin 3) * 1250 ≤ (i 0).val
      ∧ (i 0).val < win0_6.index ⟨(i 0).val / 1250, ht⟩ (0 : Fin 3) * 1250 + 1250
    rw [f0]; show (i 0).val / 1250 * 1250 ≤ (i 0).val ∧ (i 0).val < (i 0).val / 1250 * 1250 + 1250; omega
  | ⟨1, _⟩ =>
    show win0_6.index ⟨(i 0).val / 1250, ht⟩ (1 : Fin 3) * 2 ≤ (i 1).val
      ∧ (i 1).val < win0_6.index ⟨(i 0).val / 1250, ht⟩ (1 : Fin 3) * 2 + 2
    rw [f1]; omega
  | ⟨2, _⟩ =>
    show win0_6.index ⟨(i 0).val / 1250, ht⟩ (2 : Fin 3) * 128 ≤ (i 2).val
      ∧ (i 2).val < win0_6.index ⟨(i 0).val / 1250, ht⟩ (2 : Fin 3) * 128 + 128
    rw [f2]; omega

/-- The message array after the run is the reference's. -/
theorem final (c : Dev nD) : (dats m 0 c).arrAt 6 cfg0.N = msg m c :=
  (dats m 0 c).arrAt_eq_of_cover 6 (msg m c) (fun t _ => flushed_eq m c t) cover

end Cert.Affine

end
-- ==== Proof.KernelRun.lean ====
/-
  The idealized kernel's run with its result named.

  After the region, the host lines scatter-add the message array into per-node sums, count the edges per node
  (a scatter-add of ones), and divide the sums by max(count, 1). These are the reference's last lines applied
  to the same destination indices and to the message array the region left, which is the reference's message
  array (Blocks.lean): so the result buffer ends at the reference's result as a function of the arguments.
-/
import proofs.«109849_j81793357185443_2_alg».proof.Proof.Blocks

set_option maxRecDepth 16384

noncomputable section

namespace Cert.Affine

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- The result as the reference computes it from the argument arrays. -/
abbrev result (c : Dev nD) : S20000x2x128.Idx → EReal :=
  Cert.ReferenceIdeal.Read.val_main_v39 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The lines after the region leave the reference's result in the result buffer. -/
theorem result_eq (c : Dev nD) :
    Pipeline.afterTail₀ cfgs (dats m) 0 (V0 m) [hostOps1] c main_v24 = result m c := by
  unfold Pipeline.afterTail₀
  show StableHlo.after hostOps1 _ (Proc.devRef .tc main_v24) = _
  after_results
  rw [Pipeline.withArrays_arr spec0 launch0.win.arr_inj c _ _ 6]
  rw [Pipeline.withArrays_of_ne _ c (V0 m c) _ main_arg6 (by exact (by decide : ∀ w, Pipeline.arrRef spec0 w ≠ main_arg6))]
  have hf : (dats m 0 c).arrAt 6 (cfgs 0).N = msg m c := final m c
  have ha : V0 m c (Proc.devRef .tc main_arg6) = m ((c : Thread nD τ).loc main_arg6) := V_main_arg6 m c
  rw [hf, ha]
  rfl

/-- The idealized kernel runs, its result buffer ends at `result`, and its arguments end unchanged. -/
theorem run : θ_run defs (onTc (τ := τ) (main (F := Ideal))) ⟨m, fun _ => 0, ρ⟩ (fun r => ∀ c : Dev nD,
      r.2.mem ((c.tc : Thread nD τ).loc main_v24) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v24 (Pipeline.mem_restRefs_of main_v24 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.Affine

end
-- ==== Proof.lean ====
/- The five claims of this certificate.

   The kernel gathers each edge's source features, multiplies them by a per-lane scale and adds a per-lane bias,
   where the scale and bias are the left ones when the edge's position word is zero and the right ones otherwise
   (the scales being the logistic function of two parameter vectors), and then averages the messages over each
   destination node (a scatter-add of the messages divided by max(number of incoming edges, 1)). The kernel writes
   the choice as the blend  mask * left + (1 - mask) * right  with a 0/1 mask; the reference writes it as a select.

   On the extended reals the blend by a 0/1 mask is the selected operand for all operands (Proof/Blend.lean), the
   kernel's stored value at an entry is the reference's message at the same entry (Proof/KernelPoint.lean,
   Proof/RefPoint.lean), the 160 blocks of 1250 edges the region writes tile the message array
   (Proof/Blocks.lean), and the lines after the region are the reference's last lines (Proof/KernelRun.lean): the
   two results are one function of the arguments. No step uses that the inputs are finite. The three frames are
   the generated ones (the reference's is its generated run with the result dropped); the idealization rewrote
   nothing, so there is nothing to preserve. -/
import proofs.«109849_j81793357185443_2_alg».proof.Defs
import proofs.«109849_j81793357185443_2_alg».proof.Proof.Gen.Kernel
import proofs.«109849_j81793357185443_2_alg».proof.Proof.Gen.Kernel.Skeleton
import proofs.«109849_j81793357185443_2_alg».proof.Proof.Gen.Kernel.Launch
import proofs.«109849_j81793357185443_2_alg».proof.Proof.Gen.Kernel.Points
import proofs.«109849_j81793357185443_2_alg».proof.Proof.Gen.Kernel.Frame
import proofs.«109849_j81793357185443_2_alg».proof.Proof.Gen.KernelIdeal
import proofs.«109849_j81793357185443_2_alg».proof.Proof.Gen.KernelIdeal.Skeleton
import proofs.«109849_j81793357185443_2_alg».proof.Proof.Gen.KernelIdeal.Launch
import proofs.«109849_j81793357185443_2_alg».proof.Proof.Gen.KernelIdeal.Points
import proofs.«109849_j81793357185443_2_alg».proof.Proof.Gen.KernelIdeal.Frame
import proofs.«109849_j81793357185443_2_alg».proof.Proof.Gen.ReferenceIdeal
import proofs.«109849_j81793357185443_2_alg».proof.Proof.Gen.ReferenceIdeal.Run
import proofs.«109849_j81793357185443_2_alg».proof.Proof.Gen.ReferenceIdeal.Read
import proofs.«109849_j81793357185443_2_alg».proof.Proof.Gen.Pre_finite_inputs
import proofs.«109849_j81793357185443_2_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with their result buffers at the
    reference's result as a function of the kernel's arguments. -/
theorem algebraic : Cert.algebraic_KernelIdeal_ReferenceIdeal := by
  intro m ρ m' ρ' _ hagree
  refine ⟨fun c => Cert.Affine.result m c, Cert.Affine.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7]
  exact Cert.ReferenceIdeal.Read.val_main_v39_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
